-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 70
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x64, .f32⟩
  | .hbm, ⟨69, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel's program run, with its result array named.

  The program is six segments in a row: a stretch of array operations, a grid region, a stretch, a region, a stretch, a
  region. Every weakly fair execution goes through them in order and terminates without a fault; what the buffers hold
  at each boundary is the previous boundary's contents changed by the segment (a stretch applies its operations, a
  region leaves its input arrays as they were and its output array at what its grid points wrote back). So the final
  memory has the result array at the last boundary's contents, and the twelve argument arrays as they were launched.
-/
import proofs.«122064_j11244224381113_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents of
    the last boundary and every argument array as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«122064_j11244224381113_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«122064_j11244224381113_1_alg».proof.Proof.LibMatmulPlain
import proofs.«122064_j11244224381113_1_alg».proof.Proof.LibDotGeneralPlain
import proofs.«122064_j11244224381113_1_alg».proof.Proof.LibHostBroadcast
import proofs.«122064_j11244224381113_1_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.LibSoftplusForms.lean ====
/-
  jnp's softplus, log(1 + exp u) computed as max(u, 0) + log1p(exp(-|u - 0|)) with the case u - 0 ≠ u - 0 guarded, at
  one extended real, in the two spellings the programs use: the host's (an unordered "not equal" test, a negation)
  and the kernel's (the ordered test, a subtraction from zero). On the extended reals an entry never differs from
  itself, so both tests fail and both spellings are the unguarded branch; and 0 - a = -a. Hence one function.
-/
import Idealize.ShloMosaic.PureOps.Ideal.Laws

noncomputable section

namespace Cert.LibSoftplusForms

open Idealize.ShloMosaic

/-- The host's spelling at one entry. -/
def spHost (u : Ideal .f32) : Ideal .f32 :=
  Scalar.select
    (FloatOps.cmpf .une (FloatOps.subf u (FloatOps.ofBits .f32 0x00000000#32)) (FloatOps.subf u (FloatOps.ofBits .f32 0x00000000#32)))
    (FloatOps.addf u (FloatOps.ofBits .f32 0x00000000#32))
    (FloatOps.addf (FloatOps.maximumf u (FloatOps.ofBits .f32 0x00000000#32))
      (FloatOps.hostUnary .log1p (FloatOps.hostUnary .exp (FloatOps.hostNegf (FloatOps.hostAbsf
        (FloatOps.subf u (FloatOps.ofBits .f32 0x00000000#32)))))))

/-- The kernel's spelling at one entry. -/
def spKernel (u : Ideal .f32) : Ideal .f32 :=
  Scalar.select
    (FloatOps.cmpf .one (FloatOps.subf u (Scalar.ofBits .f32 0x00000000#32)) (FloatOps.subf u (Scalar.ofBits .f32 0x00000000#32)))
    (FloatOps.addf u (Scalar.ofBits .f32 0x00000000#32))
    (FloatOps.addf (FloatOps.maximumf u (Scalar.ofBits .f32 0x00000000#32))
      (FloatOps.log1p (FloatOps.exp (FloatOps.subf (Scalar.ofBits .f32 0x00000000#32)
        (FloatOps.absf (FloatOps.subf u (Scalar.ofBits .f32 0x00000000#32)))))))

/-- The two spellings are one function of the entry. -/
theorem spKernel_eq (u : Ideal .f32) : spKernel u = spHost u := by
  unfold spKernel spHost
  have e : ∀ a : EReal, (Ideal.ofBits .f32 0x00000000#32 : EReal) - a = -a := fun a => by
    rw [Ideal.ofBits_zero_f32, zero_sub]
  show Scalar.select _ _ (_ + Ideal.log1p (Ideal.exp (Ideal.ofBits .f32 0x00000000#32 - _)))
    = Scalar.select _ _ (_ + Ideal.log1p (Ideal.exp (- _)))
  rw [e]
  rfl

end Cert.LibSoftplusForms

end
-- ==== Proof.LibRowBlockOps.lean ====
/-
  Row blocks through the operations the dense stages are spelled with, one lemma per operation so that a stage is read
  from its outermost operation inwards: sums, differences and products entry by entry; the exponential (the kernel's and
  the host's are one function on the extended reals); a scalar constant spread over a block and over the whole matrix;
  a dense layer (a product with a shared matrix from the zero accumulator plus a shared bias row); and jnp's softplus in
  the kernel's and in the host's spelling, which are one function of an entry.
-/
import proofs.«122064_j11244224381113_1_alg».proof.Proof.LibRowBlock
import proofs.«122064_j11244224381113_1_alg».proof.Proof.LibSoftplusForms

noncomputable section

namespace Cert.LibRowBlock

open Idealize.ShloMosaic Idealize.ShloMosaic.ValueIdx Cert.LibSoftplusForms

variable {M M' N K : ℕ} {r : ℕ}

/-- jnp's softplus on an array, in the kernel's spelling. -/
def kSoftplus {S : Shape} (v : FVec Ideal S .f32) : FVec Ideal S .f32 :=
  select (cmpf .one (subf v (broadcast S (Scalar.ofBits .f32 0x00000000#32))) (subf v (broadcast S (Scalar.ofBits .f32 0x00000000#32))))
    (addf v (broadcast S (Scalar.ofBits .f32 0x00000000#32)))
    (addf (maximumf v (broadcast S (Scalar.ofBits .f32 0x00000000#32)))
      (log1p (exp (subf (broadcast S (Scalar.ofBits .f32 0x00000000#32))
        (absf (subf v (broadcast S (Scalar.ofBits .f32 0x00000000#32))))))))

/-- jnp's softplus on an array, in the host's spelling. -/
def hSoftplus {S : Shape} (dims : Fin (⟨0, ![]⟩ : Shape).rank → Fin S.rank) (h : (⟨0, ![]⟩ : Shape).BroadcastsInDim S dims)
    (X : FVec Ideal S .f32) : FVec Ideal S .f32 :=
  select (cmpf .une (subf X (broadcastInDim S dims h (constant ⟨0, ![]⟩ .f32 0x00000000#32)))
      (subf X (broadcastInDim S dims h (constant ⟨0, ![]⟩ .f32 0x00000000#32))))
    (addf X (broadcastInDim S dims h (constant ⟨0, ![]⟩ .f32 0x00000000#32)))
    (addf (maximumf X (broadcastInDim S dims h (constant ⟨0, ![]⟩ .f32 0x00000000#32)))
      (Host.log1p (Host.exp (Host.negf (Host.absf
        (subf X (broadcastInDim S dims h (constant ⟨0, ![]⟩ .f32 0x00000000#32))))))))

theorem kSoftplus_eq {S : Shape} (v : FVec Ideal S .f32) : kSoftplus v = fun i => spHost (v i) :=
  funext fun i => spKernel_eq (v i)

theorem hSoftplus_eq {S : Shape} (dims : Fin (⟨0, ![]⟩ : Shape).rank → Fin S.rank) (h : (⟨0, ![]⟩ : Shape).BroadcastsInDim S dims)
    (X : FVec Ideal S .f32) : hSoftplus dims h X = fun i => spHost (X i) := rfl

namespace RowBlk

theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) := RowBlk.map₂ FloatOps.addf hx hy

theorem subf {φ : FTy} {x y : FVec Ideal ⟨2, ![M, N]⟩ φ} {X Y : FVec Ideal ⟨2, ![M', N]⟩ φ} (hx : RowBlk r x X) (hy : RowBlk r y Y) :
    RowBlk r (Idealize.ShloMosaic.subf x y) (Idealize.ShloMosaic.subf X Y) := RowBlk.map₂ FloatOps.subf hx hy

theorem mulf {φ : FTy} {x y : FVec Ideal ⟨2, ![M, N]⟩ φ} {X Y : FVec Ideal ⟨2, ![M', N]⟩ φ} (hx : RowBlk r x X) (hy : RowBlk r y Y) :
    RowBlk r (Idealize.ShloMosaic.mulf x y) (Idealize.ShloMosaic.mulf X Y) := RowBlk.map₂ FloatOps.mulf hx hy

/-- The kernel's exponential of a block and the host's of the whole matrix. -/
theorem exp_hostExp {φ : FTy} {x : FVec Ideal ⟨2, ![M, N]⟩ φ} {X : FVec Ideal ⟨2, ![M', N]⟩ φ} (hx : RowBlk r x X) :
    RowBlk r (Idealize.ShloMosaic.exp x) (Host.exp X) := RowBlk.map₁ Ideal.exp hx

/-- A scalar constant spread over a block by the kernel and over the whole matrix by the host. -/
theorem splat {φ : FTy} (b : BitVec φ.bits) (dims : Fin (⟨0, ![]⟩ : Shape).rank → Fin (⟨2, ![M', N]⟩ : Shape).rank)
    (h : (⟨0, ![]⟩ : Shape).BroadcastsInDim ⟨2, ![M', N]⟩ dims) :
    RowBlk r (broadcast ⟨2, ![M, N]⟩ (Scalar.ofBits (F := Ideal) φ b))
      (broadcastInDim ⟨2, ![M', N]⟩ dims h (constant (F := Ideal) ⟨0, ![]⟩ φ b)) := RowBlk.const (Ideal.ofBits φ b)

/-- A dense layer: the product with a shared matrix from the zero accumulator, plus a shared bias row. -/
theorem dense {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂)
    (b : FVec Ideal ⟨2, ![1, N]⟩ .f32) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) (hx : RowBlk r x X) :
    RowBlk r (Idealize.ShloMosaic.addf (matmul D prec x w (constant (F := Ideal) ⟨2, ![M, N]⟩ .f32 0x00000000#32)) (broadcastTo ⟨2, ![M, N]⟩ b hb))
      (Idealize.ShloMosaic.addf (Host.dotGeneral D' prec' X w) (broadcastInDim ⟨2, ![M', N]⟩ dims hB b)) :=
  RowBlk.addf (RowBlk.matmul_dot D hD D' hD' prec prec' .single w hx) (RowBlk.rowBias b hb dims hd1 hB)

/-- A product with a shared matrix from the zero accumulator, with no bias. -/
theorem product {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (matmul D prec x w (constant (F := Ideal) ⟨2, ![M, N]⟩ .f32 0x00000000#32)) (Host.dotGeneral D' prec' X w) :=
  RowBlk.matmul_dot D hD D' hD' prec prec' .single w hx

/-- jnp's softplus, the kernel's spelling on a block and the host's on the whole matrix. -/
theorem softplus {x : FVec Ideal ⟨2, ![M, N]⟩ .f32} {X : FVec Ideal ⟨2, ![M', N]⟩ .f32}
    (dims : Fin (⟨0, ![]⟩ : Shape).rank → Fin (⟨2, ![M', N]⟩ : Shape).rank)
    (h : (⟨0, ![]⟩ : Shape).BroadcastsInDim ⟨2, ![M', N]⟩ dims) (hx : RowBlk r x X) :
    RowBlk r (kSoftplus x) (hSoftplus dims h X) := by
  rw [kSoftplus_eq, hSoftplus_eq]
  exact RowBlk.map₁ spHost hx

end RowBlk

end Cert.LibRowBlock

end
-- ==== Proof.LibSageLayer.lean ====
/-
  One layer of a mean-aggregating graph convolution, on all rows at once and on a block of rows.

  For node features H (n×k), neighbour sums S (n×k), inverse degrees d (an n×1 column), weights Ws and Wn (k×o) and a
  bias row b (1×o), the layer's value before its activation is   H·Ws + (S ⊙ d)·Wn + b ,  with d spread over the k
  columns and b over the n rows; the activation is the maximum with zero, entry by entry.  Entry (p, q) of the result
  depends on row p of H, row p of S and entry p of d only (and on the shared Ws, Wn, b), so the same expression
  evaluated on rows r, …, r+m-1 of H, S and d is rows r, …, r+m-1 of the whole result.  That is all that relates a
  computation done block of rows by block of rows to the one done on the whole matrix; no law of arithmetic is used:
  the two matrix products are the same finite sums, term by term, and the sums and the product by d are taken in the
  same order on both sides.  A change of float format is the identity on the extended reals.  Generic in the extents.
-/
import proofs.«122064_j11244224381113_1_alg».proof.Proof.LibRowBlockOps

noncomputable section

namespace Cert.Sage

open Idealize.ShloMosaic Idealize.ShloMosaic.ValueIdx Cert.LibRowBlock

variable {M M' K N : ℕ}

/-- The layer before its activation on all M' rows, in the spelling of array operations on whole matrices:
    H·Ws + (S ⊙ spread d)·Wn + spread b. -/
def layerAll (D' : DotDims ⟨2, ![M', K]⟩ ⟨2, ![K, N]⟩ ⟨2, ![M', N]⟩)
    (dc : Fin (⟨2, ![M', 1]⟩ : Shape).rank → Fin (⟨2, ![M', K]⟩ : Shape).rank)
    (hc : (⟨2, ![M', 1]⟩ : Shape).BroadcastsInDim ⟨2, ![M', K]⟩ dc)
    (dr : Fin (⟨2, ![1, N]⟩ : Shape).rank → Fin (⟨2, ![M', N]⟩ : Shape).rank)
    (hr : (⟨2, ![1, N]⟩ : Shape).BroadcastsInDim ⟨2, ![M', N]⟩ dr)
    (H S : FVec Ideal ⟨2, ![M', K]⟩ .f32) (d : FVec Ideal ⟨2, ![M', 1]⟩ .f32)
    (Ws Wn : FVec Ideal ⟨2, ![K, N]⟩ .f32) (b : FVec Ideal ⟨2, ![1, N]⟩ .f32) : FVec Ideal ⟨2, ![M', N]⟩ .f32 :=
  addf (addf (Host.dotGeneral D' none H Ws) (Host.dotGeneral D' none (mulf S (broadcastInDim ⟨2, ![M', K]⟩ dc hc d)) Wn))
    (broadcastInDim ⟨2, ![M', N]⟩ dr hr b)

/-- The same expression on a block of M rows, in the spelling of vector operations on a block: the two products
    accumulate from the zero matrix and take their operands through a change of float format. -/
def layerBlk (D : DotDims ⟨2, ![M, K]⟩ ⟨2, ![K, N]⟩ ⟨2, ![M, N]⟩)
    (hcol : (⟨2, ![M, 1]⟩ : Shape).Broadcasts ⟨2, ![M, K]⟩) (hrow : (⟨2, ![1, N]⟩ : Shape).Broadcasts ⟨2, ![M, N]⟩)
    (hlt : FTy.bf16.bits < FTy.f32.bits)
    (h s : FVec Ideal ⟨2, ![M, K]⟩ .f32) (d : FVec Ideal ⟨2, ![M, 1]⟩ .f32)
    (Ws Wn : FVec Ideal ⟨2, ![K, N]⟩ .f32) (b : FVec Ideal ⟨2, ![1, N]⟩ .f32) : FVec Ideal ⟨2, ![M, N]⟩ .f32 :=
  addf (addf (matmul D none (truncf .bf16 h hlt) (truncf .bf16 Ws hlt) (constant ⟨2, ![M, N]⟩ .f32 0x00000000#32))
      (matmul D none (truncf .bf16 (mulf s (broadcastTo ⟨2, ![M, K]⟩ d hcol)) hlt) (truncf .bf16 Wn hlt)
        (constant ⟨2, ![M, N]⟩ .f32 0x00000000#32)))
    (broadcastTo ⟨2, ![M, N]⟩ b hrow)

/-- The activation on a whole matrix: the maximum with a zero spread over the matrix. -/
def reluAll {S : Shape} (d0 : Fin (⟨0, ![]⟩ : Shape).rank → Fin S.rank) (h0 : (⟨0, ![]⟩ : Shape).BroadcastsInDim S d0)
    (X : FVec Ideal S .f32) : FVec Ideal S .f32 :=
  maximumf X (broadcastInDim S d0 h0 (constant ⟨0, ![]⟩ .f32 0x00000000#32))

/-- The activation on a block: the maximum with a splatted zero. -/
def reluBlk {S : Shape} (x : FVec Ideal S .f32) : FVec Ideal S .f32 :=
  maximumf x (broadcast S (Scalar.ofBits .f32 0x00000000#32))

variable {r : ℕ}

/-- Rows r … of the three row-indexed operands give rows r … of the layer. -/
theorem layerBlk_rowBlk (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (hcol : (⟨2, ![M, 1]⟩ : Shape).Broadcasts ⟨2, ![M, K]⟩) (hrow : (⟨2, ![1, N]⟩ : Shape).Broadcasts ⟨2, ![M, N]⟩)
    (hlt : FTy.bf16.bits < FTy.f32.bits)
    (dc : Fin (⟨2, ![M', 1]⟩ : Shape).rank → Fin (⟨2, ![M', K]⟩ : Shape).rank)
    (hdc : dc ⟨0, Nat.succ_pos 1⟩ = ⟨0, Nat.succ_pos 1⟩)
    (hc : (⟨2, ![M', 1]⟩ : Shape).BroadcastsInDim ⟨2, ![M', K]⟩ dc)
    (dr : Fin (⟨2, ![1, N]⟩ : Shape).rank → Fin (⟨2, ![M', N]⟩ : Shape).rank)
    (hdr : dr ⟨1, Nat.lt_succ_self 1⟩ = ⟨1, Nat.lt_succ_self 1⟩)
    (hr : (⟨2, ![1, N]⟩ : Shape).BroadcastsInDim ⟨2, ![M', N]⟩ dr)
    {h s : FVec Ideal ⟨2, ![M, K]⟩ .f32} {d : FVec Ideal ⟨2, ![M, 1]⟩ .f32}
    {H S : FVec Ideal ⟨2, ![M', K]⟩ .f32} {Dv : FVec Ideal ⟨2, ![M', 1]⟩ .f32}
    (Ws Wn : FVec Ideal ⟨2, ![K, N]⟩ .f32) (b : FVec Ideal ⟨2, ![1, N]⟩ .f32)
    (hh : RowBlk r h H) (hs : RowBlk r s S) (hd : RowBlk r d Dv) :
    RowBlk r (layerBlk D hcol hrow hlt h s d Ws Wn b) (layerAll D' dc hc dr hr H S Dv Ws Wn b) :=
  RowBlk.addf
    (RowBlk.addf (RowBlk.product D hD D' hD' none none Ws hh)
      (RowBlk.product D hD D' hD' none none Wn (RowBlk.mulf hs (RowBlk.colSpread hd hcol dc hdc hc))))
    (RowBlk.rowBias b hrow dr hdr hr)

/-- Rows r … of a matrix give rows r … of its activation. -/
theorem reluBlk_rowBlk {x : FVec Ideal ⟨2, ![M, N]⟩ .f32} {X : FVec Ideal ⟨2, ![M', N]⟩ .f32}
    (d0 : Fin (⟨0, ![]⟩ : Shape).rank → Fin (⟨2, ![M', N]⟩ : Shape).rank)
    (h0 : (⟨0, ![]⟩ : Shape).BroadcastsInDim ⟨2, ![M', N]⟩ d0) (hx : RowBlk r x X) :
    RowBlk r (reluBlk x) (reluAll d0 h0 X) :=
  RowBlk.map₂ FloatOps.maximumf hx (RowBlk.splat (M := M) (r := r) (φ := .f32) 0x00000000#32 d0 h0)

end Cert.Sage

end
-- ==== Proof.Region0.lean ====
/-
  Region 0 of the kernel's program: what its grid writes into its output array.

  The region runs one body at 20 grid points. At point t the body is handed rows 5000·t, …, 5000·t + 4999 of the
  feature matrix, of the neighbour sums and of the inverse-degree column, and the whole of the two weight matrices and
  of the bias row; it stores the layer's value on those rows, after the activation, and the pipeline writes the block back to rows
  5000·t, … of the output array. The 20 blocks tile the 100000 rows, so the output array ends holding the layer's value
  on all rows, as one function of the six arrays the region found. Stated for any contents the region is entered with.
-/
import proofs.«122064_j11244224381113_1_alg».proof.Proof.Gen.KernelIdeal.Frame
import proofs.«122064_j11244224381113_1_alg».proof.Proof.LibSageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibRowBlock Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the layer on a block of rows followed by the activation: its casts of a block to its own shape move
    nothing. -/
theorem pay_eq (x0 x1 : Vec Ideal S5000x128 .f32) (x2 : Vec Ideal S5000x1 .f32) (x3 x4 : Vec Ideal S128x128 .f32)
    (x5 : Vec Ideal S1x128 .f32) :
    k0_pay1 x0 x1 x2 x3 x4 x5 = reluBlk (layerBlk dot_S5000x128_S128x128_S5000x128_1_0_0_1_n_n broadcasts_S5000x1_S5000x128 broadcasts_S1x128_S5000x128 bitsLt_bf16_f32 x0 x1 x2 x3 x4 x5) := by
  unfold k0_pay1
  simp only [shapeCast_self]
  rfl

/-- The printed index maps over the grid: the three row-indexed inputs and the output move down one block of rows per
    point, the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The features' block at point t is rows 5000·t … of the feature matrix. -/
theorem blk_h (c : Dev nD) (t : Fin cfg0.N) :
    RowBlk (5000 * t.val) (iblk0 V c 0 t : Vec Ideal S5000x128 .f32) (V c main_arg0 : S100000x128.Idx → Ideal .f32) := fun p q h => by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; omega
  | ⟨1, _⟩ => show win0_0.index t (1 : Fin 2) * 128 + 1 * q.val = q.val; omega

/-- The neighbour sums' block at point t is rows 5000·t … of the neighbour sums. -/
theorem blk_s (c : Dev nD) (t : Fin cfg0.N) :
    RowBlk (5000 * t.val) (iblk0 V c 1 t : Vec Ideal S5000x128 .f32) (V c main_v18 : S100000x128.Idx → Ideal .f32) := fun p q h => by
  obtain ⟨-, -, e0, e1, -⟩ := idx_facts t
  unfold iblk0
  rw [View.read_apply]
  show V c main_v18 _ = V c main_v18 _
  congr 1
  funext a
  apply Fin.ext
  match a with
  | ⟨0, _⟩ => show win0_1.index t (0 : Fin 2) * 5000 + 1 * p.val = 5000 * t.val + p.val; omega
  | ⟨1, _⟩ => show win0_1.index t (1 : Fin 2) * 128 + 1 * q.val = q.val; omega

/-- The inverse degrees' block at point t is rows 5000·t … of the inverse-degree column. -/
theorem blk_d (c : Dev nD) (t : Fin cfg0.N) :
    RowBlk (5000 * t.val) (iblk0 V c 2 t : Vec Ideal S5000x1 .f32) (V c main_v8 : S100000x1.Idx → Ideal .f32) := fun p q h => by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t (0 : Fin 2) * 5000 + 1 * p.val = 5000 * t.val + p.val; omega
  | ⟨1, _⟩ => show win0_2.index t (1 : Fin 2) * 1 + 1 * q.val = q.val; omega

/-- The first weight matrix's one block is the whole matrix. -/
theorem blk_ws (c : Dev nD) (t : Fin cfg0.N) : (iblk0 V c 3 t : Vec Ideal S128x128 .f32) = V c main_arg3 := by
  obtain ⟨-, -, -, -, -, -, e0, e1, -⟩ := idx_facts t
  funext y
  unfold iblk0
  rw [View.read_apply]
  show V c main_arg3 _ = V c main_arg3 _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second weight matrix's one block is the whole matrix. -/
theorem blk_wn (c : Dev nD) (t : Fin cfg0.N) : (iblk0 V c 4 t : Vec Ideal S128x128 .f32) = V c main_arg4 := by
  obtain ⟨-, -, -, -, -, -, -, -, e0, e1, -⟩ := idx_facts t
  funext y
  unfold iblk0
  rw [View.read_apply]
  show V c main_arg4 _ = V c main_arg4 _
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias row's one block is the whole row. -/
theorem blk_b (c : Dev nD) (t : Fin cfg0.N) : (iblk0 V c 5 t : Vec Ideal S1x128 .f32) = V c main_v19 := by
  obtain ⟨-, -, -, -, -, -, -, -, -, -, e0, e1, -⟩ := idx_facts t
  funext y
  unfold iblk0
  rw [View.read_apply]
  show V c main_v19 _ = V c main_v19 _
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

section Whole

variable (D' : DotDims ⟨2, ![100000, 128]⟩ ⟨2, ![128, 128]⟩ ⟨2, ![100000, 128]⟩) (hD' : D' = DotDims.plain 100000 128 128)
    (dc : Fin (⟨2, ![100000, 1]⟩ : Shape).rank → Fin (⟨2, ![100000, 128]⟩ : Shape).rank)
    (hdc : dc ⟨0, Nat.succ_pos 1⟩ = ⟨0, Nat.succ_pos 1⟩)
    (hc : (⟨2, ![100000, 1]⟩ : Shape).BroadcastsInDim ⟨2, ![100000, 128]⟩ dc)
    (dr : Fin (⟨2, ![1, 128]⟩ : Shape).rank → Fin (⟨2, ![100000, 128]⟩ : Shape).rank)
    (hdr : dr ⟨1, Nat.lt_succ_self 1⟩ = ⟨1, Nat.lt_succ_self 1⟩)
    (hr : (⟨2, ![1, 128]⟩ : Shape).BroadcastsInDim ⟨2, ![100000, 128]⟩ dr)
    (d0 : Fin (⟨0, ![]⟩ : Shape).rank → Fin (⟨2, ![100000, 128]⟩ : Shape).rank)
    (h0 : (⟨0, ![]⟩ : Shape).BroadcastsInDim ⟨2, ![100000, 128]⟩ d0)

/-- The layer's value on all rows, of the six arrays as the region finds them. -/
def whole (c : Dev nD) : S100000x128.Idx → Ideal .f32 :=
  reluAll d0 h0 (layerAll D' dc hc dr hr (V c main_arg0) (V c main_v18) (V c main_v8) (V c main_arg3) (V c main_arg4) (V c main_v19))

include hD' hdc hdr in
/-- What point t writes back is block t of the layer's value on all rows. -/
theorem flushed_eq (c : Dev nD) (t : Fin cfg0.N) :
    (dat0 V c).flushed 6 t = ((cfg0.win 6).blk t).view.read (Elt Ideal) (whole V D' dc hc dr hr d0 h0 c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  rw [pay_eq, blk_ws, blk_wn, blk_b]
  obtain ⟨-, -, -, -, -, -, -, -, -, -, -, -, e0, e1⟩ := idx_facts t
  have hrows : RowBlk (5000 * t.val)
      (reluBlk (layerBlk dot_S5000x128_S128x128_S5000x128_1_0_0_1_n_n broadcasts_S5000x1_S5000x128 broadcasts_S1x128_S5000x128 bitsLt_bf16_f32
        (iblk0 V c 0 t : Vec Ideal S5000x128 .f32) (iblk0 V c 1 t : Vec Ideal S5000x128 .f32) (iblk0 V c 2 t : Vec Ideal S5000x1 .f32)
        (V c main_arg3) (V c main_arg4) (V c main_v19)))
      (whole V D' dc hc dr hr d0 h0 c) :=
    reluBlk_rowBlk d0 h0 (layerBlk_rowBlk dot_S5000x128_S128x128_S5000x128_1_0_0_1_n_n rfl D' hD' broadcasts_S5000x1_S5000x128 broadcasts_S1x128_S5000x128
      bitsLt_bf16_f32 dc hdc hc dr hdr hr (V c main_arg3) (V c main_arg4) (V c main_v19) (blk_h V c t) (blk_s V c t) (blk_d V c t))
  funext j
  exact hrows.apply j (((cfg0.win 6).blk t).view.emb j)
    (by show win0_6.index t (0 : Fin 2) * 5000 + 1 * (j 0).val = 5000 * t.val + (j 0).val; omega)
    (by show win0_6.index t (1 : Fin 2) * 128 + 1 * (j 1).val = (j 1).val; omega)

/-- An index of the output array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every row lies in the block of the point numbered by the row divided by 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  refine ⟨⟨(i 0).val / 5000, by show (i 0).val / 5000 < 20; omega⟩, flush0_6 _, ?_⟩
  rw [mem_blk]
  obtain ⟨-, -, -, -, -, -, -, -, -, -, -, -, e0, e1⟩ := idx_facts ⟨(i 0).val / 5000, by show (i 0).val / 5000 < 20; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

include hD' hdc hdr in
/-- The output array after the region: the layer's value on all rows. -/
theorem final (c : Dev nD) : (dat0 V c).arrAt 6 cfg0.N = whole V D' dc hc dr hr d0 h0 c :=
  (dat0 V c).arrAt_eq_of_cover 6 (whole V D' dc hc dr hr d0 h0 c) (fun t _ => flushed_eq V D' hD' dc hdc hc dr hdr hr d0 h0 c t) cover

end Whole

end Cert.KernelIdeal.Region0

end
-- ==== Proof.Region1.lean ====
/-
  Region 1 of the kernel's program: what its grid writes into its output array.

  The region runs one body at 20 grid points. At point t the body is handed rows 5000·t, …, 5000·t + 4999 of the
  feature matrix, of the neighbour sums and of the inverse-degree column, and the whole of the two weight matrices and
  of the bias row; it stores the layer's value on those rows, after the activation, and the pipeline writes the block back to rows
  5000·t, … of the output array. The 20 blocks tile the 100000 rows, so the output array ends holding the layer's value
  on all rows, as one function of the six arrays the region found. Stated for any contents the region is entered with.
-/
import proofs.«122064_j11244224381113_1_alg».proof.Proof.Gen.KernelIdeal.Frame
import proofs.«122064_j11244224381113_1_alg».proof.Proof.LibSageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibRowBlock Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the layer on a block of rows followed by the activation: its casts of a block to its own shape move
    nothing. -/
theorem pay_eq (x0 x1 : Vec Ideal S5000x128 .f32) (x2 : Vec Ideal S5000x1 .f32) (x3 x4 : Vec Ideal S128x128 .f32)
    (x5 : Vec Ideal S1x128 .f32) :
    k1_pay1 x0 x1 x2 x3 x4 x5 = reluBlk (layerBlk dot_S5000x128_S128x128_S5000x128_1_0_0_1_n_n broadcasts_S5000x1_S5000x128 broadcasts_S1x128_S5000x128 bitsLt_bf16_f32 x0 x1 x2 x3 x4 x5) := by
  unfold k1_pay1
  simp only [shapeCast_self]
  rfl

/-- The printed index maps over the grid: the three row-indexed inputs and the output move down one block of rows per
    point, the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The features' block at point t is rows 5000·t … of the feature matrix. -/
theorem blk_h (c : Dev nD) (t : Fin cfg1.N) :
    RowBlk (5000 * t.val) (iblk1 V c 0 t : Vec Ideal S5000x128 .f32) (V c main_v20 : S100000x128.Idx → Ideal .f32) := fun p q h => by
  obtain ⟨e0, e1, -⟩ := idx_facts t
  unfold iblk1
  rw [View.read_apply]
  show V c main_v20 _ = V c main_v20 _
  congr 1
  funext a
  apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- The neighbour sums' block at point t is rows 5000·t … of the neighbour sums. -/
theorem blk_s (c : Dev nD) (t : Fin cfg1.N) :
    RowBlk (5000 * t.val) (iblk1 V c 1 t : Vec Ideal S5000x128 .f32) (V c main_v30 : S100000x128.Idx → Ideal .f32) := fun p q h => by
  obtain ⟨-, -, e0, e1, -⟩ := idx_facts t
  unfold iblk1
  rw [View.read_apply]
  show V c main_v30 _ = V c main_v30 _
  congr 1
  funext a
  apply Fin.ext
  match a with
  | ⟨0, _⟩ => show win1_1.index t (0 : Fin 2) * 5000 + 1 * p.val = 5000 * t.val + p.val; omega
  | ⟨1, _⟩ => show win1_1.index t (1 : Fin 2) * 128 + 1 * q.val = q.val; omega

/-- The inverse degrees' block at point t is rows 5000·t … of the inverse-degree column. -/
theorem blk_d (c : Dev nD) (t : Fin cfg1.N) :
    RowBlk (5000 * t.val) (iblk1 V c 2 t : Vec Ideal S5000x1 .f32) (V c main_v8 : S100000x1.Idx → Ideal .f32) := fun p q h => by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t (0 : Fin 2) * 5000 + 1 * p.val = 5000 * t.val + p.val; omega
  | ⟨1, _⟩ => show win1_2.index t (1 : Fin 2) * 1 + 1 * q.val = q.val; omega

/-- The first weight matrix's one block is the whole matrix. -/
theorem blk_ws (c : Dev nD) (t : Fin cfg1.N) : (iblk1 V c 3 t : Vec Ideal S128x128 .f32) = V c main_arg6 := by
  obtain ⟨-, -, -, -, -, -, e0, e1, -⟩ := idx_facts t
  funext y
  unfold iblk1
  rw [View.read_apply]
  show V c main_arg6 _ = V c main_arg6 _
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second weight matrix's one block is the whole matrix. -/
theorem blk_wn (c : Dev nD) (t : Fin cfg1.N) : (iblk1 V c 4 t : Vec Ideal S128x128 .f32) = V c main_arg7 := by
  obtain ⟨-, -, -, -, -, -, -, -, e0, e1, -⟩ := idx_facts t
  funext y
  unfold iblk1
  rw [View.read_apply]
  show V c main_arg7 _ = V c main_arg7 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias row's one block is the whole row. -/
theorem blk_b (c : Dev nD) (t : Fin cfg1.N) : (iblk1 V c 5 t : Vec Ideal S1x128 .f32) = V c main_v31 := by
  obtain ⟨-, -, -, -, -, -, -, -, -, -, e0, e1, -⟩ := idx_facts t
  funext y
  unfold iblk1
  rw [View.read_apply]
  show V c main_v31 _ = V c main_v31 _
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

section Whole

variable (D' : DotDims ⟨2, ![100000, 128]⟩ ⟨2, ![128, 128]⟩ ⟨2, ![100000, 128]⟩) (hD' : D' = DotDims.plain 100000 128 128)
    (dc : Fin (⟨2, ![100000, 1]⟩ : Shape).rank → Fin (⟨2, ![100000, 128]⟩ : Shape).rank)
    (hdc : dc ⟨0, Nat.succ_pos 1⟩ = ⟨0, Nat.succ_pos 1⟩)
    (hc : (⟨2, ![100000, 1]⟩ : Shape).BroadcastsInDim ⟨2, ![100000, 128]⟩ dc)
    (dr : Fin (⟨2, ![1, 128]⟩ : Shape).rank → Fin (⟨2, ![100000, 128]⟩ : Shape).rank)
    (hdr : dr ⟨1, Nat.lt_succ_self 1⟩ = ⟨1, Nat.lt_succ_self 1⟩)
    (hr : (⟨2, ![1, 128]⟩ : Shape).BroadcastsInDim ⟨2, ![100000, 128]⟩ dr)
    (d0 : Fin (⟨0, ![]⟩ : Shape).rank → Fin (⟨2, ![100000, 128]⟩ : Shape).rank)
    (h0 : (⟨0, ![]⟩ : Shape).BroadcastsInDim ⟨2, ![100000, 128]⟩ d0)

/-- The layer's value on all rows, of the six arrays as the region finds them. -/
def whole (c : Dev nD) : S100000x128.Idx → Ideal .f32 :=
  reluAll d0 h0 (layerAll D' dc hc dr hr (V c main_v20) (V c main_v30) (V c main_v8) (V c main_arg6) (V c main_arg7) (V c main_v31))

include hD' hdc hdr in
/-- What point t writes back is block t of the layer's value on all rows. -/
theorem flushed_eq (c : Dev nD) (t : Fin cfg1.N) :
    (dat1 V c).flushed 6 t = ((cfg1.win 6).blk t).view.read (Elt Ideal) (whole V D' dc hc dr hr d0 h0 c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  rw [pay_eq, blk_ws, blk_wn, blk_b]
  obtain ⟨-, -, -, -, -, -, -, -, -, -, -, -, e0, e1⟩ := idx_facts t
  have hrows : RowBlk (5000 * t.val)
      (reluBlk (layerBlk dot_S5000x128_S128x128_S5000x128_1_0_0_1_n_n broadcasts_S5000x1_S5000x128 broadcasts_S1x128_S5000x128 bitsLt_bf16_f32
        (iblk1 V c 0 t : Vec Ideal S5000x128 .f32) (iblk1 V c 1 t : Vec Ideal S5000x128 .f32) (iblk1 V c 2 t : Vec Ideal S5000x1 .f32)
        (V c main_arg6) (V c main_arg7) (V c main_v31)))
      (whole V D' dc hc dr hr d0 h0 c) :=
    reluBlk_rowBlk d0 h0 (layerBlk_rowBlk dot_S5000x128_S128x128_S5000x128_1_0_0_1_n_n rfl D' hD' broadcasts_S5000x1_S5000x128 broadcasts_S1x128_S5000x128
      bitsLt_bf16_f32 dc hdc hc dr hdr hr (V c main_arg6) (V c main_arg7) (V c main_v31) (blk_h V c t) (blk_s V c t) (blk_d V c t))
  funext j
  exact hrows.apply j (((cfg1.win 6).blk t).view.emb j)
    (by show win1_6.index t (0 : Fin 2) * 5000 + 1 * (j 0).val = 5000 * t.val + (j 0).val; omega)
    (by show win1_6.index t (1 : Fin 2) * 128 + 1 * (j 1).val = (j 1).val; omega)

/-- An index of the output array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Every row lies in the block of the point numbered by the row divided by 5000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 5000, by show (i 0).val / 5000 < 20; omega⟩, flush1_6 _, ?_⟩
  rw [mem_blk]
  obtain ⟨-, -, -, -, -, -, -, -, -, -, -, -, e0, e1⟩ := idx_facts ⟨(i 0).val / 5000, by show (i 0).val / 5000 < 20; omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

include hD' hdc hdr in
/-- The output array after the region: the layer's value on all rows. -/
theorem final (c : Dev nD) : (dat1 V c).arrAt 6 cfg1.N = whole V D' dc hc dr hr d0 h0 c :=
  (dat1 V c).arrAt_eq_of_cover 6 (whole V D' dc hc dr hr d0 h0 c) (fun t _ => flushed_eq V D' hD' dc hdc hc dr hdr hr d0 h0 c t) cover

end Whole

end Cert.KernelIdeal.Region1

end
-- ==== Proof.Region2.lean ====
/-
  Region 2 of the kernel's program: what its grid writes into its output array.

  The region runs one body at 20 grid points. At point t the body is handed rows 5000·t, …, 5000·t + 4999 of the
  feature matrix, of the neighbour sums and of the inverse-degree column, and the whole of the two weight matrices and
  of the bias row; it stores the layer's value on those rows and the pipeline writes the block back to rows
  5000·t, … of the output array. The 20 blocks tile the 100000 rows, so the output array ends holding the layer's value
  on all rows, as one function of the six arrays the region found. Stated for any contents the region is entered with.
-/
import proofs.«122064_j11244224381113_1_alg».proof.Proof.Gen.KernelIdeal.Frame
import proofs.«122064_j11244224381113_1_alg».proof.Proof.LibSageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.LibRowBlock Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the layer on a block of rows: its casts of a block to its own shape move
    nothing. -/
theorem pay_eq (x0 x1 : Vec Ideal S5000x128 .f32) (x2 : Vec Ideal S5000x1 .f32) (x3 x4 : Vec Ideal S128x64 .f32)
    (x5 : Vec Ideal S1x64 .f32) :
    k2_pay1 x0 x1 x2 x3 x4 x5 = layerBlk dot_S5000x128_S128x64_S5000x64_1_0_0_1_n_n broadcasts_S5000x1_S5000x128 broadcasts_S1x64_S5000x64 bitsLt_bf16_f32 x0 x1 x2 x3 x4 x5 := by
  unfold k2_pay1
  simp only [shapeCast_self]
  rfl

/-- The printed index maps over the grid: the three row-indexed inputs and the output move down one block of rows per
    point, the weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The features' block at point t is rows 5000·t … of the feature matrix. -/
theorem blk_h (c : Dev nD) (t : Fin cfg2.N) :
    RowBlk (5000 * t.val) (iblk2 V c 0 t : Vec Ideal S5000x128 .f32) (V c main_v32 : S100000x128.Idx → Ideal .f32) := fun p q h => by
  obtain ⟨e0, e1, -⟩ := idx_facts t
  unfold iblk2
  rw [View.read_apply]
  show V c main_v32 _ = V c main_v32 _
  congr 1
  funext a
  apply Fin.ext
  match a with
  | ⟨0, _⟩ => show win2_0.index t (0 : Fin 2) * 5000 + 1 * p.val = 5000 * t.val + p.val; omega
  | ⟨1, _⟩ => show win2_0.index t (1 : Fin 2) * 128 + 1 * q.val = q.val; omega

/-- The neighbour sums' block at point t is rows 5000·t … of the neighbour sums. -/
theorem blk_s (c : Dev nD) (t : Fin cfg2.N) :
    RowBlk (5000 * t.val) (iblk2 V c 1 t : Vec Ideal S5000x128 .f32) (V c main_v42 : S100000x128.Idx → Ideal .f32) := fun p q h => by
  obtain ⟨-, -, e0, e1, -⟩ := idx_facts t
  unfold iblk2
  rw [View.read_apply]
  show V c main_v42 _ = V c main_v42 _
  congr 1
  funext a
  apply Fin.ext
  match a with
  | ⟨0, _⟩ => show win2_1.index t (0 : Fin 2) * 5000 + 1 * p.val = 5000 * t.val + p.val; omega
  | ⟨1, _⟩ => show win2_1.index t (1 : Fin 2) * 128 + 1 * q.val = q.val; omega

/-- The inverse degrees' block at point t is rows 5000·t … of the inverse-degree column. -/
theorem blk_d (c : Dev nD) (t : Fin cfg2.N) :
    RowBlk (5000 * t.val) (iblk2 V c 2 t : Vec Ideal S5000x1 .f32) (V c main_v8 : S100000x1.Idx → Ideal .f32) := fun p q h => by
  obtain ⟨-, -, -, -, e0, e1, -⟩ := idx_facts t
  unfold iblk2
  rw [View.read_apply]
  show V c main_v8 _ = V c main_v8 _
  congr 1
  funext a
  apply Fin.ext
  match a with
  | ⟨0, _⟩ => show win2_2.index t (0 : Fin 2) * 5000 + 1 * p.val = 5000 * t.val + p.val; omega
  | ⟨1, _⟩ => show win2_2.index t (1 : Fin 2) * 1 + 1 * q.val = q.val; omega

/-- The first weight matrix's one block is the whole matrix. -/
theorem blk_ws (c : Dev nD) (t : Fin cfg2.N) : (iblk2 V c 3 t : Vec Ideal S128x64 .f32) = V c main_arg9 := by
  obtain ⟨-, -, -, -, -, -, e0, e1, -⟩ := idx_facts t
  funext y
  unfold iblk2
  rw [View.read_apply]
  show V c main_arg9 _ = V c main_arg9 _
  congr 1
  funext a
  apply Fin.ext
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- The second weight matrix's one block is the whole matrix. -/
theorem blk_wn (c : Dev nD) (t : Fin cfg2.N) : (iblk2 V c 4 t : Vec Ideal S128x64 .f32) = V c main_arg10 := by
  obtain ⟨-, -, -, -, -, -, -, -, e0, e1, -⟩ := idx_facts t
  funext y
  unfold iblk2
  rw [View.read_apply]
  show V c main_arg10 _ = V c main_arg10 _
  congr 1
  funext a
  apply Fin.ext
  match a with
  | ⟨0, _⟩ => show win2_4.index t (0 : Fin 2) * 128 + 1 * (y 0).val = (y 0).val; omega
  | ⟨1, _⟩ => show win2_4.index t (1 : Fin 2) * 64 + 1 * (y 1).val = (y 1).val; omega

/-- The bias row's one block is the whole row. -/
theorem blk_b (c : Dev nD) (t : Fin cfg2.N) : (iblk2 V c 5 t : Vec Ideal S1x64 .f32) = V c main_v43 := by
  obtain ⟨-, -, -, -, -, -, -, -, -, -, e0, e1, -⟩ := idx_facts t
  funext y
  unfold iblk2
  rw [View.read_apply]
  show V c main_v43 _ = V c main_v43 _
  congr 1
  funext a
  apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

section Whole

variable (D' : DotDims ⟨2, ![100000, 128]⟩ ⟨2, ![128, 64]⟩ ⟨2, ![100000, 64]⟩) (hD' : D' = DotDims.plain 100000 128 64)
    (dc : Fin (⟨2, ![100000, 1]⟩ : Shape).rank → Fin (⟨2, ![100000, 128]⟩ : Shape).rank)
    (hdc : dc ⟨0, Nat.succ_pos 1⟩ = ⟨0, Nat.succ_pos 1⟩)
    (hc : (⟨2, ![100000, 1]⟩ : Shape).BroadcastsInDim ⟨2, ![100000, 128]⟩ dc)
    (dr : Fin (⟨2, ![1, 64]⟩ : Shape).rank → Fin (⟨2, ![100000, 64]⟩ : Shape).rank)
    (hdr : dr ⟨1, Nat.lt_succ_self 1⟩ = ⟨1, Nat.lt_succ_self 1⟩)
    (hr : (⟨2, ![1, 64]⟩ : Shape).BroadcastsInDim ⟨2, ![100000, 64]⟩ dr)

/-- The layer's value on all rows, of the six arrays as the region finds them. -/
def whole (c : Dev nD) : S100000x64.Idx → Ideal .f32 :=
  layerAll D' dc hc dr hr (V c main_v32) (V c main_v42) (V c main_v8) (V c main_arg9) (V c main_arg10) (V c main_v43)

include hD' hdc hdr in
/-- What point t writes back is block t of the layer's value on all rows. -/
theorem flushed_eq (c : Dev nD) (t : Fin cfg2.N) :
    (dat2 V c).flushed 6 t = ((cfg2.win 6).blk t).view.read (Elt Ideal) (whole V D' dc hc dr hr c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x64) hz,
    View.ld_unit_zero (S := S1x64) hz]
  rw [pay_eq, blk_ws, blk_wn, blk_b]
  obtain ⟨-, -, -, -, -, -, -, -, -, -, -, -, e0, e1⟩ := idx_facts t
  have hrows : RowBlk (5000 * t.val)
      (layerBlk dot_S5000x128_S128x64_S5000x64_1_0_0_1_n_n broadcasts_S5000x1_S5000x128 broadcasts_S1x64_S5000x64 bitsLt_bf16_f32
        (iblk2 V c 0 t : Vec Ideal S5000x128 .f32) (iblk2 V c 1 t : Vec Ideal S5000x128 .f32) (iblk2 V c 2 t : Vec Ideal S5000x1 .f32)
        (V c main_arg9) (V c main_arg10) (V c main_v43))
      (whole V D' dc hc dr hr c) :=
    (layerBlk_rowBlk dot_S5000x128_S128x64_S5000x64_1_0_0_1_n_n rfl D' hD' broadcasts_S5000x1_S5000x128 broadcasts_S1x64_S5000x64
      bitsLt_bf16_f32 dc hdc hc dr hdr hr (V c main_arg9) (V c main_arg10) (V c main_v43) (blk_h V c t) (blk_s V c t) (blk_d V c t))
  funext j
  exact hrows.apply j (((cfg2.win 6).blk t).view.emb j)
    (by show win2_6.index t (0 : Fin 2) * 5000 + 1 * (j 0).val = 5000 * t.val + (j 0).val; omega)
    (by show win2_6.index t (1 : Fin 2) * 64 + 1 * (j 1).val = (j 1).val; omega)

/-- An index of the output array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v44).slice (win2_6.rect t)).set ↔ _
  rw [View.set_slice_whole, Rect.mem_set_unit]
  exact Iff.rfl

/-- Every row lies in the block of the point numbered by the row divided by 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  refine ⟨⟨(i 0).val / 5000, by show (i 0).val / 5000 < 20; omega⟩, flush2_6 _, ?_⟩
  rw [mem_blk]
  obtain ⟨-, -, -, -, -, -, -, -, -, -, -, -, e0, e1⟩ := idx_facts ⟨(i 0).val / 5000, by show (i 0).val / 5000 < 20; omega⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 64 ≤ (i 1).val ∧ (i 1).val < win2_6.index _ (1 : Fin 2) * 64 + 64
    rw [e1]; omega

include hD' hdc hdr in
/-- The output array after the region: the layer's value on all rows. -/
theorem final (c : Dev nD) : (dat2 V c).arrAt 6 cfg2.N = whole V D' dc hc dr hr c :=
  (dat2 V c).arrAt_eq_of_cover 6 (whole V D' dc hc dr hr c) (fun t _ => flushed_eq V D' hD' dc hdc hc dr hdr hr c t) cover

end Whole

end Cert.KernelIdeal.Region2

end
-- ==== Proof.KernelHostDefs.lean ====
/-
  The array operations the kernel's program applies around its three grid regions, as functions of their operands.

  The neighbour sums of a feature matrix h: for every edge e the row h[src e] is gathered (a negative source index is
  first wrapped by adding the number of nodes, as numpy indexing does) and added into row dst e of a zero matrix. The
  inverse degrees: one is added at dst e for every edge e, starting from zero; the count is raised to at least one, and
  one is divided by it. Both are spelt exactly as the program spells them, so that the program's buffers are these
  functions of the argument arrays by reading the program, and no property of a gather or of a scatter is ever needed.
-/
import proofs.«122064_j11244224381113_1_alg».proof.Proof.Gen.KernelIdeal
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

/-- The neighbour sums of `h` along the edges `src → dst`. -/
def agg (src dst : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One over the number of edges into each node, the number raised to at least one. -/
def degInv (dst : IVec S1600000 32) : FVec Ideal S100000 .f32 :=
  Host.divf (F := Ideal) (broadcastInDim S100000 ![] bcast_S_S100000 (constant (F := Ideal) S_ .f32 0x3F800000#32))
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

end Cert.KernelIdeal.Net

end
-- ==== Proof.KernelStretch0.lean ====
/-
  The first stretch of array operations of the kernel's program, read back: it leaves the argument arrays alone, and computes the inverse degrees as a column, the neighbour sums of the input features, and the first bias as a row.
  Stated from any contents the stretch starts from: each of its operations writes one buffer of its own, as a function
  of buffers written before it or not written by the stretch at all.
-/
import proofs.«122064_j11244224381113_1_alg».proof.Proof.KernelHostDefs
import proofs.«122064_j11244224381113_1_alg».proof.Proof.Gen.KernelIdeal.Launch

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (W : Valuation τ sig (Elt Ideal))

/-- The buffers the stretch's operations write. -/
abbrev written0 : List (Ref sig .tc) := [main_cst, main_v0, main_cst_0, main_v1, main_v2, main_v3, main_cst_1, main_v4, main_v5, main_cst_2, main_v6, main_v7, main_v8, main_c, main_v9, main_v10, main_c_3, main_v11, main_v12, main_v13, main_v14, main_v15, main_cst_4, main_v16, main_v17, main_v18, main_v19]

theorem writes0 : (hostOps0 : List (HloOp τ sig (Elt Ideal))).Forall fun op => op.writes ⊆ ((written0).map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write keeps its contents. -/
theorem keep0 (r : Ref sig .tc) (h : r ∉ written0) :
    StableHlo.after hostOps0 W (Proc.devRef .tc r) = W (Proc.devRef .tc r) :=
  StableHlo.after_of_writes_sub hostOps0 _ writes0 h

/-- After the first stretch the neighbour-sum buffer holds the neighbour sums of the input features. -/
theorem sums0 : StableHlo.after hostOps0 W (Proc.devRef .tc main_v18)
    = agg (W (Proc.devRef .tc main_arg1)) (W (Proc.devRef .tc main_arg2)) (W (Proc.devRef .tc main_arg0)) := by
  after_results_simp <;> rfl

/-- After the first stretch the inverse-degree buffer holds the inverse degrees, laid out as a column. -/
theorem col0 : StableHlo.after hostOps0 W (Proc.devRef .tc main_v8)
    = shapeCast S100000x1 (degInv (W (Proc.devRef .tc main_arg2))) shapeCasts_S100000_S100000x1 := by
  after_results_simp <;> rfl

/-- After the first stretch the first bias buffer holds the first bias vector, laid out as a row. -/
theorem row0 : StableHlo.after hostOps0 W (Proc.devRef .tc main_v19)
    = shapeCast S1x128 (W (Proc.devRef .tc main_arg5)) shapeCasts_S128_S1x128 := by
  after_results_simp <;> rfl

end Cert.KernelIdeal.Net

end
-- ==== Proof.KernelStretch1.lean ====
/-
  The second stretch of array operations of the kernel's program, read back: it leaves the argument arrays, the inverse degrees and the first layer's output alone, and computes the neighbour sums of that output and the second bias as a row.
  Stated from any contents the stretch starts from: each of its operations writes one buffer of its own, as a function
  of buffers written before it or not written by the stretch at all.
-/
import proofs.«122064_j11244224381113_1_alg».proof.Proof.KernelHostDefs
import proofs.«122064_j11244224381113_1_alg».proof.Proof.Gen.KernelIdeal.Launch

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (W : Valuation τ sig (Elt Ideal))

/-- The buffers the stretch's operations write. -/
abbrev written1 : List (Ref sig .tc) := [main_c_5, main_v21, main_v22, main_c_6, main_v23, main_v24, main_v25, main_v26, main_v27, main_cst_7, main_v28, main_v29, main_v30, main_v31]

theorem writes1 : (hostOps1 : List (HloOp τ sig (Elt Ideal))).Forall fun op => op.writes ⊆ ((written1).map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write keeps its contents. -/
theorem keep1 (r : Ref sig .tc) (h : r ∉ written1) :
    StableHlo.after hostOps1 W (Proc.devRef .tc r) = W (Proc.devRef .tc r) :=
  StableHlo.after_of_writes_sub hostOps1 _ writes1 h

/-- After the second stretch the neighbour-sum buffer holds the neighbour sums of the first layer's output. -/
theorem sums1 : StableHlo.after hostOps1 W (Proc.devRef .tc main_v30)
    = agg (W (Proc.devRef .tc main_arg1)) (W (Proc.devRef .tc main_arg2)) (W (Proc.devRef .tc main_v20)) := by
  after_results_simp <;> rfl

/-- After the second stretch the second bias buffer holds the second bias vector, laid out as a row. -/
theorem row1 : StableHlo.after hostOps1 W (Proc.devRef .tc main_v31)
    = shapeCast S1x128 (W (Proc.devRef .tc main_arg8)) shapeCasts_S128_S1x128 := by
  after_results_simp <;> rfl

end Cert.KernelIdeal.Net

end
-- ==== Proof.KernelStretch2.lean ====
/-
  The third stretch of array operations of the kernel's program, read back: it leaves the argument arrays, the inverse degrees and the second layer's output alone, and computes the neighbour sums of that output and the third bias as a row.
  Stated from any contents the stretch starts from: each of its operations writes one buffer of its own, as a function
  of buffers written before it or not written by the stretch at all.
-/
import proofs.«122064_j11244224381113_1_alg».proof.Proof.KernelHostDefs
import proofs.«122064_j11244224381113_1_alg».proof.Proof.Gen.KernelIdeal.Launch

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (W : Valuation τ sig (Elt Ideal))

/-- The buffers the stretch's operations write. -/
abbrev written2 : List (Ref sig .tc) := [main_c_8, main_v33, main_v34, main_c_9, main_v35, main_v36, main_v37, main_v38, main_v39, main_cst_10, main_v40, main_v41, main_v42, main_v43]

theorem writes2 : (hostOps2 : List (HloOp τ sig (Elt Ideal))).Forall fun op => op.writes ⊆ ((written2).map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write keeps its contents. -/
theorem keep2 (r : Ref sig .tc) (h : r ∉ written2) :
    StableHlo.after hostOps2 W (Proc.devRef .tc r) = W (Proc.devRef .tc r) :=
  StableHlo.after_of_writes_sub hostOps2 _ writes2 h

/-- After the third stretch the neighbour-sum buffer holds the neighbour sums of the second layer's output. -/
theorem sums2 : StableHlo.after hostOps2 W (Proc.devRef .tc main_v42)
    = agg (W (Proc.devRef .tc main_arg1)) (W (Proc.devRef .tc main_arg2)) (W (Proc.devRef .tc main_v32)) := by
  after_results_simp <;> rfl

/-- After the third stretch the third bias buffer holds the third bias vector, laid out as a row. -/
theorem row2 : StableHlo.after hostOps2 W (Proc.devRef .tc main_v43)
    = shapeCast S1x64 (W (Proc.devRef .tc main_arg11)) shapeCasts_S64_S1x64 := by
  after_results_simp <;> rfl

end Cert.KernelIdeal.Net

end
-- ==== Proof.SageNet.lean ====
/-
  Three layers of the mean-aggregating graph convolution, as one function of the inputs.

  With A the map from a feature matrix to its neighbour sums and d the column of inverse degrees, a hidden layer sends h to
  max(h·Ws + (A h ⊙ d)·Wn + b, 0) and the output layer sends h to h·Ws + (A h ⊙ d)·Wn + b; the network is two hidden layers
  followed by the output layer. A and d are parameters here: both sides of the comparison build them from the edge lists
  with the same operations, and nothing about them is used except that they are the same.
-/
import proofs.«122064_j11244224381113_1_alg».proof.Proof.LibSageLayer

noncomputable section

namespace Cert.Sage

open Idealize.ShloMosaic Idealize.ShloMosaic.ValueIdx

variable (D1 : DotDims ⟨2, ![100000, 128]⟩ ⟨2, ![128, 128]⟩ ⟨2, ![100000, 128]⟩)
  (D2 : DotDims ⟨2, ![100000, 128]⟩ ⟨2, ![128, 64]⟩ ⟨2, ![100000, 64]⟩)
  (dc : Fin (⟨2, ![100000, 1]⟩ : Shape).rank → Fin (⟨2, ![100000, 128]⟩ : Shape).rank)
  (hc : (⟨2, ![100000, 1]⟩ : Shape).BroadcastsInDim ⟨2, ![100000, 128]⟩ dc)
  (dr1 : Fin (⟨2, ![1, 128]⟩ : Shape).rank → Fin (⟨2, ![100000, 128]⟩ : Shape).rank)
  (hr1 : (⟨2, ![1, 128]⟩ : Shape).BroadcastsInDim ⟨2, ![100000, 128]⟩ dr1)
  (dr2 : Fin (⟨2, ![1, 64]⟩ : Shape).rank → Fin (⟨2, ![100000, 64]⟩ : Shape).rank)
  (hr2 : (⟨2, ![1, 64]⟩ : Shape).BroadcastsInDim ⟨2, ![100000, 64]⟩ dr2)
  (d0 : Fin (⟨0, ![]⟩ : Shape).rank → Fin (⟨2, ![100000, 128]⟩ : Shape).rank)
  (h0 : (⟨0, ![]⟩ : Shape).BroadcastsInDim ⟨2, ![100000, 128]⟩ d0)
  (A : FVec Ideal ⟨2, ![100000, 128]⟩ .f32 → FVec Ideal ⟨2, ![100000, 128]⟩ .f32)
  (d : FVec Ideal ⟨2, ![100000, 1]⟩ .f32)

/-- A hidden layer: the layer's value followed by the activation. -/
def hiddenLayer (h : FVec Ideal ⟨2, ![100000, 128]⟩ .f32) (Ws Wn : FVec Ideal ⟨2, ![128, 128]⟩ .f32)
    (b : FVec Ideal ⟨2, ![1, 128]⟩ .f32) : FVec Ideal ⟨2, ![100000, 128]⟩ .f32 :=
  reluAll d0 h0 (layerAll D1 dc hc dr1 hr1 h (A h) d Ws Wn b)

/-- The output layer: the layer's value, no activation. -/
def outLayer (h : FVec Ideal ⟨2, ![100000, 128]⟩ .f32) (Ws Wn : FVec Ideal ⟨2, ![128, 64]⟩ .f32)
    (b : FVec Ideal ⟨2, ![1, 64]⟩ .f32) : FVec Ideal ⟨2, ![100000, 64]⟩ .f32 :=
  layerAll D2 dc hc dr2 hr2 h (A h) d Ws Wn b

/-- The network: two hidden layers and the output layer. -/
def net (x : FVec Ideal ⟨2, ![100000, 128]⟩ .f32)
    (Ws0 Wn0 : FVec Ideal ⟨2, ![128, 128]⟩ .f32) (b0 : FVec Ideal ⟨2, ![1, 128]⟩ .f32)
    (Ws1 Wn1 : FVec Ideal ⟨2, ![128, 128]⟩ .f32) (b1 : FVec Ideal ⟨2, ![1, 128]⟩ .f32)
    (Ws2 Wn2 : FVec Ideal ⟨2, ![128, 64]⟩ .f32) (b2 : FVec Ideal ⟨2, ![1, 64]⟩ .f32) : FVec Ideal ⟨2, ![100000, 64]⟩ .f32 :=
  outLayer D2 dc hc dr2 hr2 A d
    (hiddenLayer D1 dc hc dr1 hr1 d0 h0 A d (hiddenLayer D1 dc hc dr1 hr1 d0 h0 A d x Ws0 Wn0 b0) Ws1 Wn1 b1) Ws2 Wn2 b2

end Cert.Sage

end
-- ==== Proof.KernelValue.lean ====
/-
  What the kernel's program leaves in its result array, as one function of the argument arrays.

  The contents of the buffers are followed from the launch through the six segments of the program. A stretch of array
  operations leaves every buffer it does not write as it was and writes the others as functions of earlier ones; a grid
  region leaves its input arrays and every other buffer as they were and its output array at the layer's value on all rows
  of the six arrays it was entered with. The argument arrays are never written, so at every boundary they hold their
  launch contents; the inverse-degree column is written once, before the first region; each region's feature input is
  the previous region's output and its neighbour-sum input the neighbour sums of that output. Putting the three layers
  together gives the network of the argument arrays.
-/
import proofs.«122064_j11244224381113_1_alg».proof.Proof.Region0
import proofs.«122064_j11244224381113_1_alg».proof.Proof.Region1
import proofs.«122064_j11244224381113_1_alg».proof.Proof.Region2
import proofs.«122064_j11244224381113_1_alg».proof.Proof.KernelStretch0
import proofs.«122064_j11244224381113_1_alg».proof.Proof.KernelStretch1
import proofs.«122064_j11244224381113_1_alg».proof.Proof.KernelStretch2
import proofs.«122064_j11244224381113_1_alg».proof.Proof.SageNet

set_option maxRecDepth 16384

noncomputable section

namespace Cert.KernelIdeal.Net

open Cert.KernelIdeal Cert.KernelIdeal.Gen Cert.Sage
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Buffers that keep their launch contents -/

/-- Before the first region a buffer the first stretch does not write holds its launch contents. -/
theorem at1 (r : Ref sig .tc) (h0 : r ∉ written0) : W1 m ρ c (Proc.devRef .tc r) = m ((c : Thread nD τ).loc r) :=
  keep0 (W0 m ρ c) r h0

/-- So it does after the first region, if it is not one of that region's arrays. -/
theorem at2 (r : Ref sig .tc) (h0 : r ∉ written0) (ha : ∀ w, Pipeline.arrRef spec0 w ≠ r) :
    W2 m ρ c (Proc.devRef .tc r) = m ((c : Thread nD τ).loc r) :=
  (W2_of_ne m ρ c r ha).trans (at1 m ρ c r h0)

/-- And before the second region, if the second stretch does not write it. -/
theorem at3 (r : Ref sig .tc) (h0 : r ∉ written0) (ha : ∀ w, Pipeline.arrRef spec0 w ≠ r) (h1 : r ∉ written1) :
    W3 m ρ c (Proc.devRef .tc r) = m ((c : Thread nD τ).loc r) :=
  (keep1 (W2 m ρ c) r h1).trans (at2 m ρ c r h0 ha)

/-- And after the second region, if it is not one of that region's arrays. -/
theorem at4 (r : Ref sig .tc) (h0 : r ∉ written0) (ha : ∀ w, Pipeline.arrRef spec0 w ≠ r) (h1 : r ∉ written1)
    (hb : ∀ w, Pipeline.arrRef spec1 w ≠ r) : W4 m ρ c (Proc.devRef .tc r) = m ((c : Thread nD τ).loc r) :=
  (W4_of_ne m ρ c r hb).trans (at3 m ρ c r h0 ha h1)

/-- And before the third region, if the third stretch does not write it. -/
theorem at5 (r : Ref sig .tc) (h0 : r ∉ written0) (ha : ∀ w, Pipeline.arrRef spec0 w ≠ r) (h1 : r ∉ written1)
    (hb : ∀ w, Pipeline.arrRef spec1 w ≠ r) (h2 : r ∉ written2) : W5 m ρ c (Proc.devRef .tc r) = m ((c : Thread nD τ).loc r) :=
  (keep2 (W4 m ρ c) r h2).trans (at4 m ρ c r h0 ha h1 hb)

/-! ## The inverse-degree column, written once -/

/-- The column of inverse degrees of the destination list. -/
abbrev col : FVec Ideal S100000x1 .f32 :=
  shapeCast S100000x1 (degInv (m ((c : Thread nD τ).loc main_arg2))) shapeCasts_S100000_S100000x1

theorem col1 : V1 m ρ c main_v8 = col m c := col0 (W0 m ρ c)

theorem col2 : W2 m ρ c (Proc.devRef .tc main_v8) = col m c :=
  ((W2_arr m ρ c 2).trans (((dat0 (V1 m ρ) c).arrAt_in 2 rfl _).trans (A_eq0 (V1 m ρ) c 2))).trans (col1 m ρ c)

theorem col3 : V3 m ρ c main_v8 = col m c := (keep1 (W2 m ρ c) main_v8 (by decide)).trans (col2 m ρ c)

theorem col4 : W4 m ρ c (Proc.devRef .tc main_v8) = col m c :=
  ((W4_arr m ρ c 2).trans (((dat1 (V3 m ρ) c).arrAt_in 2 rfl _).trans (A_eq1 (V3 m ρ) c 2))).trans (col3 m ρ c)

theorem col5 : V5 m ρ c main_v8 = col m c := (keep2 (W4 m ρ c) main_v8 (by decide)).trans (col4 m ρ c)

/-! ## The three layers -/

section Layers

variable (D1 : DotDims ⟨2, ![100000, 128]⟩ ⟨2, ![128, 128]⟩ ⟨2, ![100000, 128]⟩) (hD1 : D1 = DotDims.plain 100000 128 128)
  (D2 : DotDims ⟨2, ![100000, 128]⟩ ⟨2, ![128, 64]⟩ ⟨2, ![100000, 64]⟩) (hD2 : D2 = DotDims.plain 100000 128 64)
  (dc : Fin (⟨2, ![100000, 1]⟩ : Shape).rank → Fin (⟨2, ![100000, 128]⟩ : Shape).rank)
  (hdc : dc ⟨0, Nat.succ_pos 1⟩ = ⟨0, Nat.succ_pos 1⟩)
  (hc : (⟨2, ![100000, 1]⟩ : Shape).BroadcastsInDim ⟨2, ![100000, 128]⟩ dc)
  (dr1 : Fin (⟨2, ![1, 128]⟩ : Shape).rank → Fin (⟨2, ![100000, 128]⟩ : Shape).rank)
  (hdr1 : dr1 ⟨1, Nat.lt_succ_self 1⟩ = ⟨1, Nat.lt_succ_self 1⟩)
  (hr1 : (⟨2, ![1, 128]⟩ : Shape).BroadcastsInDim ⟨2, ![100000, 128]⟩ dr1)
  (dr2 : Fin (⟨2, ![1, 64]⟩ : Shape).rank → Fin (⟨2, ![100000, 64]⟩ : Shape).rank)
  (hdr2 : dr2 ⟨1, Nat.lt_succ_self 1⟩ = ⟨1, Nat.lt_succ_self 1⟩)
  (hr2 : (⟨2, ![1, 64]⟩ : Shape).BroadcastsInDim ⟨2, ![100000, 64]⟩ dr2)
  (d0 : Fin (⟨0, ![]⟩ : Shape).rank → Fin (⟨2, ![100000, 128]⟩ : Shape).rank)
  (h0 : (⟨0, ![]⟩ : Shape).BroadcastsInDim ⟨2, ![100000, 128]⟩ d0)

/-- The first layer's output, of the argument arrays. -/
abbrev out1 : FVec Ideal ⟨2, ![100000, 128]⟩ .f32 :=
  hiddenLayer D1 dc hc dr1 hr1 d0 h0 (agg (m ((c : Thread nD τ).loc main_arg1)) (m ((c : Thread nD τ).loc main_arg2))) (col m c)
    (m ((c : Thread nD τ).loc main_arg0)) (m ((c : Thread nD τ).loc main_arg3)) (m ((c : Thread nD τ).loc main_arg4))
    (shapeCast S1x128 (m ((c : Thread nD τ).loc main_arg5)) shapeCasts_S128_S1x128)

/-- The second layer's output, of the argument arrays. -/
abbrev out2 : FVec Ideal ⟨2, ![100000, 128]⟩ .f32 :=
  hiddenLayer D1 dc hc dr1 hr1 d0 h0 (agg (m ((c : Thread nD τ).loc main_arg1)) (m ((c : Thread nD τ).loc main_arg2))) (col m c)
    (out1 m c D1 dc hc dr1 hr1 d0 h0) (m ((c : Thread nD τ).loc main_arg6)) (m ((c : Thread nD τ).loc main_arg7))
    (shapeCast S1x128 (m ((c : Thread nD τ).loc main_arg8)) shapeCasts_S128_S1x128)

include hD1 hdc hdr1 in
/-- After the first region its output array holds the first layer's output. -/
theorem first : W2 m ρ c (Proc.devRef .tc main_v20) = out1 m c D1 dc hc dr1 hr1 d0 h0 := by
  refine (W2_arr m ρ c 6).trans ?_
  rw [Region0.final (V1 m ρ) D1 hD1 dc hdc hc dr1 hdr1 hr1 d0 h0 c]
  unfold Region0.whole out1 hiddenLayer
  rw [show V1 m ρ c main_arg0 = m ((c : Thread nD τ).loc main_arg0) from at1 m ρ c main_arg0 (by decide),
    show V1 m ρ c main_arg3 = m ((c : Thread nD τ).loc main_arg3) from at1 m ρ c main_arg3 (by decide),
    show V1 m ρ c main_arg4 = m ((c : Thread nD τ).loc main_arg4) from at1 m ρ c main_arg4 (by decide),
    show V1 m ρ c main_v18 = agg (m ((c : Thread nD τ).loc main_arg1)) (m ((c : Thread nD τ).loc main_arg2)) (m ((c : Thread nD τ).loc main_arg0)) from sums0 (W0 m ρ c),
    show V1 m ρ c main_v19 = shapeCast S1x128 (m ((c : Thread nD τ).loc main_arg5)) shapeCasts_S128_S1x128 from row0 (W0 m ρ c),
    col1 m ρ c]

include hD1 hdc hdr1 in
/-- After the second region its output array holds the second layer's output. -/
theorem second : W4 m ρ c (Proc.devRef .tc main_v32) = out2 m c D1 dc hc dr1 hr1 d0 h0 := by
  refine (W4_arr m ρ c 6).trans ?_
  rw [Region1.final (V3 m ρ) D1 hD1 dc hdc hc dr1 hdr1 hr1 d0 h0 c]
  unfold Region1.whole out2 hiddenLayer
  have e20 : V3 m ρ c main_v20 = out1 m c D1 dc hc dr1 hr1 d0 h0 :=
    (keep1 (W2 m ρ c) main_v20 (by decide)).trans (first m ρ c D1 hD1 dc hdc hc dr1 hdr1 hr1 d0 h0)
  have e30 : V3 m ρ c main_v30 = agg (m ((c : Thread nD τ).loc main_arg1)) (m ((c : Thread nD τ).loc main_arg2)) (out1 m c D1 dc hc dr1 hr1 d0 h0) := by
    refine (sums1 (W2 m ρ c)).trans ?_
    rw [at2 m ρ c main_arg1 (by decide) (by decide), at2 m ρ c main_arg2 (by decide) (by decide),
      first m ρ c D1 hD1 dc hdc hc dr1 hdr1 hr1 d0 h0]
  have e31 : V3 m ρ c main_v31 = shapeCast S1x128 (m ((c : Thread nD τ).loc main_arg8)) shapeCasts_S128_S1x128 := by
    refine (row1 (W2 m ρ c)).trans ?_
    rw [at2 m ρ c main_arg8 (by decide) (by decide)]
  rw [e20, e30, e31, col3 m ρ c,
    show V3 m ρ c main_arg6 = m ((c : Thread nD τ).loc main_arg6) from at3 m ρ c main_arg6 (by decide) (by decide) (by decide),
    show V3 m ρ c main_arg7 = m ((c : Thread nD τ).loc main_arg7) from at3 m ρ c main_arg7 (by decide) (by decide) (by decide)]

include hD1 hD2 hdc hdr1 hdr2 in
/-- THE RESULT ARRAY at the last boundary: the network of the argument arrays, with the neighbour sums and the inverse
    degrees built from the edge lists as the program builds them, and each bias vector laid out as a row. -/
theorem value : W6 m ρ c (Proc.devRef .tc main_v44)
    = net D1 D2 dc hc dr1 hr1 dr2 hr2 d0 h0 (agg (m ((c : Thread nD τ).loc main_arg1)) (m ((c : Thread nD τ).loc main_arg2))) (col m c)
        (m ((c : Thread nD τ).loc main_arg0)) (m ((c : Thread nD τ).loc main_arg3)) (m ((c : Thread nD τ).loc main_arg4))
        (shapeCast S1x128 (m ((c : Thread nD τ).loc main_arg5)) shapeCasts_S128_S1x128)
        (m ((c : Thread nD τ).loc main_arg6)) (m ((c : Thread nD τ).loc main_arg7))
        (shapeCast S1x128 (m ((c : Thread nD τ).loc main_arg8)) shapeCasts_S128_S1x128)
        (m ((c : Thread nD τ).loc main_arg9)) (m ((c : Thread nD τ).loc main_arg10))
        (shapeCast S1x64 (m ((c : Thread nD τ).loc main_arg11)) shapeCasts_S64_S1x64) := by
  refine (W6_arr m ρ c 6).trans ?_
  rw [Region2.final (V5 m ρ) D2 hD2 dc hdc hc dr2 hdr2 hr2 c]
  unfold Region2.whole net outLayer
  have e32 : V5 m ρ c main_v32 = out2 m c D1 dc hc dr1 hr1 d0 h0 :=
    (keep2 (W4 m ρ c) main_v32 (by decide)).trans (second m ρ c D1 hD1 dc hdc hc dr1 hdr1 hr1 d0 h0)
  have e42 : V5 m ρ c main_v42 = agg (m ((c : Thread nD τ).loc main_arg1)) (m ((c : Thread nD τ).loc main_arg2)) (out2 m c D1 dc hc dr1 hr1 d0 h0) := by
    refine (sums2 (W4 m ρ c)).trans ?_
    rw [at4 m ρ c main_arg1 (by decide) (by decide) (by decide) (by decide),
      at4 m ρ c main_arg2 (by decide) (by decide) (by decide) (by decide),
      second m ρ c D1 hD1 dc hdc hc dr1 hdr1 hr1 d0 h0]
  have e43 : V5 m ρ c main_v43 = shapeCast S1x64 (m ((c : Thread nD τ).loc main_arg11)) shapeCasts_S64_S1x64 := by
    refine (row2 (W4 m ρ c)).trans ?_
    rw [at4 m ρ c main_arg11 (by decide) (by decide) (by decide) (by decide)]
  rw [e32, e42, e43, col5 m ρ c,
    show V5 m ρ c main_arg9 = m ((c : Thread nD τ).loc main_arg9) from at5 m ρ c main_arg9 (by decide) (by decide) (by decide) (by decide) (by decide),
    show V5 m ρ c main_arg10 = m ((c : Thread nD τ).loc main_arg10) from at5 m ρ c main_arg10 (by decide) (by decide) (by decide) (by decide) (by decide)]

end Layers

end Cert.KernelIdeal.Net

end
-- ==== Proof.RefValue.lean ====
/-
  What the reference program computes, as the network of its argument arrays.

  The reference is a straight line of array operations: the inverse degrees, then three times the neighbour sums of the
  current features, the layer's value H·Ws + (S ⊙ d)·Wn + b with d and b spread by broadcasts, and (twice) the maximum
  with zero. Read back as one term of the arguments, it is the network with the neighbour sums and the inverse degrees
  built from the edge lists as the reference builds them and each bias vector placed as a row; the two terms are the same
  text once the network's definitions are opened.
-/
import proofs.«122064_j11244224381113_1_alg».proof.Proof.Gen.ReferenceIdeal.Run
import proofs.«122064_j11244224381113_1_alg».proof.Proof.SageNet

set_option maxRecDepth 16384

noncomputable section

namespace Cert.ReferenceIdeal.Net

open Cert.ReferenceIdeal Cert.ReferenceIdeal.Gen Cert.ReferenceIdeal.Value Cert.Sage
open Idealize.ShloMosaic Idealize.ShloMosaic.TcCoe Idealize.SL.Sem Idealize.ShloMosaic.StableHlo

/-- The neighbour sums of `h` along the edges `src → dst`: rows gathered at the (wrapped) sources, added at the
    destinations onto zero. -/
def agg (src dst : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One over the number of edges into each node, the number raised to at least one. -/
def degInv (dst : IVec S1600000 32) : FVec Ideal S100000 .f32 :=
  Host.divf (F := Ideal) (broadcastInDim S100000 ![] bcast_S_S100000 (constant (F := Ideal) S_ .f32 0x3F800000#32))
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

variable (m : (ℓ : Loc nD τ sig) → Buf (Elt Ideal) ℓ) (c : Dev nD)

/-- The reference's result is the network of its arguments. -/
theorem result : res_main_v64 (F := Ideal) m c
    = net dot_S100000x128_S128x128_S100000x128_1_0_0_1_n_n dot_S100000x128_S128x64_S100000x64_1_0_0_1_n_n
        ![0, 1] bcast_S100000x1_S100000x128_0_1 ![0, 1] bcast_S1x128_S100000x128_0_1 ![0, 1] bcast_S1x64_S100000x64_0_1
        ![] bcast_S_S100000x128
        (agg (m ((c.tc : Thread nD τ).loc main_arg1)) (m ((c.tc : Thread nD τ).loc main_arg2)))
        (broadcastInDim S100000x1 ![0] bcast_S100000_S100000x1_0 (degInv (m ((c.tc : Thread nD τ).loc main_arg2))))
        (m ((c.tc : Thread nD τ).loc main_arg0)) (m ((c.tc : Thread nD τ).loc main_arg3)) (m ((c.tc : Thread nD τ).loc main_arg4))
        (broadcastInDim S1x128 ![1] bcast_S128_S1x128_1 (m ((c.tc : Thread nD τ).loc main_arg5)))
        (m ((c.tc : Thread nD τ).loc main_arg6)) (m ((c.tc : Thread nD τ).loc main_arg7))
        (broadcastInDim S1x128 ![1] bcast_S128_S1x128_1 (m ((c.tc : Thread nD τ).loc main_arg8)))
        (m ((c.tc : Thread nD τ).loc main_arg9)) (m ((c.tc : Thread nD τ).loc main_arg10))
        (broadcastInDim S1x64 ![1] bcast_S64_S1x64_1 (m ((c.tc : Thread nD τ).loc main_arg11))) := by
  unfold res_main_v64 net outLayer hiddenLayer layerAll reluAll agg degInv
  rfl

end Cert.ReferenceIdeal.Net

end
-- ==== Proof.LibColumnVector.lean ====
/-
  A vector and the column that holds it.

  A vector of length a placed along axis 0 of an [a, 1] column (a host broadcast) and the same vector cast to the shape
  [a, 1] are one array: entry (p, 0) is the vector's entry p either way, both sitting at row-major position p. So the
  cast of the column back to a vector returns the vector, and the cast of the vector to a column is the broadcast.
  Generic in the length and the element type; the axis map is passed with its value.
-/
import proofs.«122064_j11244224381113_1_alg».proof.Proof.LibColumns
import proofs.«122064_j11244224381113_1_alg».proof.Proof.LibHostBroadcast

namespace Cert.ColumnVector

open Idealize.ShloMosaic Idealize.ShloMosaic.ValueIdx

variable {α : Type}

/-- A vector placed as a column and cast back to a vector is the vector. -/
theorem shapeCast_column {a : ℕ} (dims : Fin (⟨1, ![a]⟩ : Shape).rank → Fin (⟨2, ![a, 1]⟩ : Shape).rank)
    (hd : dims ⟨0, Nat.one_pos⟩ = ⟨0, Nat.succ_pos 1⟩) (hB : (⟨1, ![a]⟩ : Shape).BroadcastsInDim ⟨2, ![a, 1]⟩ dims)
    (hc : (⟨2, ![a, 1]⟩ : Shape).ShapeCasts ⟨1, ![a]⟩) (y : (⟨1, ![a]⟩ : Shape).Idx → α) :
    shapeCast ⟨1, ![a]⟩ (broadcastInDim ⟨2, ![a, 1]⟩ dims hB y) hc = y := by
  funext i
  obtain ⟨p, rfl⟩ : ∃ p : Fin a, i = ix1 p := ⟨i 0, eq_ix1 i⟩
  rw [shapeCast_apply _ hc (ix1 p) (ix2 p (0 : Fin 1)) (by
    rw [Shape.rowMajor_val_two, Shape.rowMajor_val_one]
    show p.val * 1 + 0 = p.val
    rw [Nat.mul_one, Nat.add_zero])]
  exact Cert.LibHostBroadcast.bcast_a_a1_apply dims hd hB y p 0

/-- A vector cast to a column is the vector placed along axis 0 of the column. -/
theorem shapeCast_eq_column {a : ℕ} (dims : Fin (⟨1, ![a]⟩ : Shape).rank → Fin (⟨2, ![a, 1]⟩ : Shape).rank)
    (hd : dims ⟨0, Nat.one_pos⟩ = ⟨0, Nat.succ_pos 1⟩) (hB : (⟨1, ![a]⟩ : Shape).BroadcastsInDim ⟨2, ![a, 1]⟩ dims)
    (hc : (⟨1, ![a]⟩ : Shape).ShapeCasts ⟨2, ![a, 1]⟩) (y : (⟨1, ![a]⟩ : Shape).Idx → α) :
    shapeCast ⟨2, ![a, 1]⟩ y hc = broadcastInDim ⟨2, ![a, 1]⟩ dims hB y := by
  funext i
  obtain ⟨p, u, rfl⟩ : ∃ (p : Fin a) (u : Fin 1), i = ix2 p u := ⟨i 0, i 1, eq_ix2 i⟩
  rw [Cert.Columns.shapeCast_a_a1_apply, Cert.LibHostBroadcast.bcast_a_a1_apply dims hd hB]

end Cert.ColumnVector
-- ==== Proof.LibRows.lean ====
/-
  A vector laid out as a one-row matrix, two ways, and entrywise operations on it.

  A vector of length n becomes the row [1, n] either by a reshape (both sit at row-major position q) or by a broadcast
  that places it along axis 1; the two rows are the same function. An operation applied entry by entry commutes with
  forming the row: in particular 1/sqrt(v + ε) taken on the row with ε splat over the row is the row of
  1/sqrt(v + ε) taken on the vector with ε broadcast over the vector (the kernel's rsqrt and the host's are one
  function on the extended reals). Generic in n.
-/
import proofs.«122064_j11244224381113_1_alg».proof.Proof.LibHostBroadcast
import proofs.«122064_j11244224381113_1_alg».proof.Proof.LibColumns
import Idealize.ShloMosaic.PureOps.Ideal.Laws

noncomputable section

namespace Cert.LibRows

open Idealize.ShloMosaic Idealize.ShloMosaic.ValueIdx

variable {α : Type} {n : ℕ}

/-- The reshape of a vector to a row is the broadcast of the vector along axis 1 of the row. -/
theorem reshape_row_eq_bcast (y : (⟨1, ![n]⟩ : Shape).Idx → α) (hc : (⟨1, ![n]⟩ : Shape).ShapeCasts ⟨2, ![1, n]⟩)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims) :
    shapeCast ⟨2, ![1, n]⟩ y hc = broadcastInDim ⟨2, ![1, n]⟩ dims hB y := by
  funext j
  obtain ⟨u, q, rfl⟩ : ∃ (u : Fin 1) (q : Fin n), j = ix2 u q := ⟨j 0, j 1, eq_ix2 j⟩
  rw [Cert.LibHostBroadcast.bcast_b_1b_apply dims hd hB]
  exact shapeCast_apply y hc _ _ (by
    have hu : u.val = 0 := by omega
    rw [Shape.rowMajor_val_two, Shape.rowMajor_val_one]
    show q.val = u.val * n + q.val
    rw [hu, Nat.zero_mul, Nat.zero_add])

/-- 1/sqrt(v + ε) on the row of a vector is the row of 1/sqrt(v + ε) on the vector. -/
theorem rsqrt_add_row (e : BitVec 32) (y : FVec Ideal ⟨1, ![n]⟩ .f32)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims)
    (d0 : Fin (⟨0, ![]⟩ : Shape).rank → Fin (⟨1, ![n]⟩ : Shape).rank) (h0 : (⟨0, ![]⟩ : Shape).BroadcastsInDim ⟨1, ![n]⟩ d0) :
    rsqrt (addf (broadcastInDim ⟨2, ![1, n]⟩ dims hB y) (broadcast ⟨2, ![1, n]⟩ (Scalar.ofBits (F := Ideal) .f32 e)))
      = broadcastInDim ⟨2, ![1, n]⟩ dims hB
          (Host.rsqrt (addf y (broadcastInDim ⟨1, ![n]⟩ d0 h0 (constant (F := Ideal) ⟨0, ![]⟩ .f32 e)))) := by
  funext j
  obtain ⟨u, q, rfl⟩ : ∃ (u : Fin 1) (q : Fin n), j = ix2 u q := ⟨j 0, j 1, eq_ix2 j⟩
  rw [Cert.LibHostBroadcast.bcast_b_1b_apply dims hd hB]
  show FloatOps.rsqrt (FloatOps.addf (broadcastInDim ⟨2, ![1, n]⟩ dims hB y (ix2 u q)) (Ideal.ofBits .f32 e))
    = Ideal.rsqrt (FloatOps.addf (y (ix1 q)) (Ideal.ofBits .f32 e))
  rw [Cert.LibHostBroadcast.bcast_b_1b_apply dims hd hB]
  rfl

end Cert.LibRows

end
-- ==== Proof.Bridge.lean ====
/-
  The kernel's program and the reference build the same network.

  Both programs build the neighbour sums and the inverse degrees from the edge lists with the same operations in the same
  order, so those are the same functions. They differ in how two small arrays are laid out: the kernel's program reshapes
  the vector of inverse degrees into a column and each bias vector into a row, where the reference broadcasts the vector
  along axis 0 of a column and along axis 1 of a row. A reshape of a vector into a column or into a row moves no entry,
  and neither does the broadcast: entry (p, 0) of the column and entry (0, q) of the row are entries p and q of the vector
  either way.
-/
import proofs.«122064_j11244224381113_1_alg».proof.Proof.KernelHostDefs
import proofs.«122064_j11244224381113_1_alg».proof.Proof.RefValue
import proofs.«122064_j11244224381113_1_alg».proof.Proof.LibColumnVector
import proofs.«122064_j11244224381113_1_alg».proof.Proof.LibRows

set_option maxRecDepth 16384

noncomputable section

namespace Cert.Bridge

open Idealize.ShloMosaic Cert.Sage

/-- The two programs' neighbour sums are one function. -/
theorem agg_eq (src dst : IVec ⟨1, ![1600000]⟩ 32) :
    Cert.KernelIdeal.Net.agg src dst = Cert.ReferenceIdeal.Net.agg src dst := rfl

/-- The two programs' inverse degrees are one function. -/
theorem degInv_eq (dst : IVec ⟨1, ![1600000]⟩ 32) :
    Cert.KernelIdeal.Net.degInv dst = Cert.ReferenceIdeal.Net.degInv dst := rfl

/-- The inverse degrees reshaped into a column are the inverse degrees broadcast along axis 0 of a column. -/
theorem col_eq (dst : IVec ⟨1, ![1600000]⟩ 32) (hc : (⟨1, ![100000]⟩ : Shape).ShapeCasts ⟨2, ![100000, 1]⟩)
    (hB : (⟨1, ![100000]⟩ : Shape).BroadcastsInDim ⟨2, ![100000, 1]⟩ ![0]) :
    shapeCast ⟨2, ![100000, 1]⟩ (Cert.KernelIdeal.Net.degInv dst) hc
      = broadcastInDim ⟨2, ![100000, 1]⟩ ![0] hB (Cert.ReferenceIdeal.Net.degInv dst) := by
  rw [← degInv_eq]
  exact Cert.ColumnVector.shapeCast_eq_column ![0] rfl hB hc _

variable (D1 : DotDims ⟨2, ![100000, 128]⟩ ⟨2, ![128, 128]⟩ ⟨2, ![100000, 128]⟩)
  (D2 : DotDims ⟨2, ![100000, 128]⟩ ⟨2, ![128, 64]⟩ ⟨2, ![100000, 64]⟩)
  (dc : Fin (⟨2, ![100000, 1]⟩ : Shape).rank → Fin (⟨2, ![100000, 128]⟩ : Shape).rank)
  (hc : (⟨2, ![100000, 1]⟩ : Shape).BroadcastsInDim ⟨2, ![100000, 128]⟩ dc)
  (dr1 : Fin (⟨2, ![1, 128]⟩ : Shape).rank → Fin (⟨2, ![100000, 128]⟩ : Shape).rank)
  (hr1 : (⟨2, ![1, 128]⟩ : Shape).BroadcastsInDim ⟨2, ![100000, 128]⟩ dr1)
  (dr2 : Fin (⟨2, ![1, 64]⟩ : Shape).rank → Fin (⟨2, ![100000, 64]⟩ : Shape).rank)
  (hr2 : (⟨2, ![1, 64]⟩ : Shape).BroadcastsInDim ⟨2, ![100000, 64]⟩ dr2)
  (d0 : Fin (⟨0, ![]⟩ : Shape).rank → Fin (⟨2, ![100000, 128]⟩ : Shape).rank)
  (h0 : (⟨0, ![]⟩ : Shape).BroadcastsInDim ⟨2, ![100000, 128]⟩ d0)

/-- THE TWO NETWORKS ARE ONE: with the kernel's program's layouts (reshapes) on the left and the reference's
    (broadcasts) on the right. -/
theorem net_eq (src dst : IVec ⟨1, ![1600000]⟩ 32) (x : FVec Ideal ⟨2, ![100000, 128]⟩ .f32)
    (Ws0 Wn0 Ws1 Wn1 : FVec Ideal ⟨2, ![128, 128]⟩ .f32) (Ws2 Wn2 : FVec Ideal ⟨2, ![128, 64]⟩ .f32)
    (b0 b1 : FVec Ideal ⟨1, ![128]⟩ .f32) (b2 : FVec Ideal ⟨1, ![64]⟩ .f32)
    (hcol : (⟨1, ![100000]⟩ : Shape).ShapeCasts ⟨2, ![100000, 1]⟩)
    (hBcol : (⟨1, ![100000]⟩ : Shape).BroadcastsInDim ⟨2, ![100000, 1]⟩ ![0])
    (hrow1 : (⟨1, ![128]⟩ : Shape).ShapeCasts ⟨2, ![1, 128]⟩)
    (hBrow1 : (⟨1, ![128]⟩ : Shape).BroadcastsInDim ⟨2, ![1, 128]⟩ ![1])
    (hrow2 : (⟨1, ![64]⟩ : Shape).ShapeCasts ⟨2, ![1, 64]⟩)
    (hBrow2 : (⟨1, ![64]⟩ : Shape).BroadcastsInDim ⟨2, ![1, 64]⟩ ![1]) :
    net D1 D2 dc hc dr1 hr1 dr2 hr2 d0 h0 (Cert.KernelIdeal.Net.agg src dst)
        (shapeCast ⟨2, ![100000, 1]⟩ (Cert.KernelIdeal.Net.degInv dst) hcol)
        x Ws0 Wn0 (shapeCast ⟨2, ![1, 128]⟩ b0 hrow1) Ws1 Wn1 (shapeCast ⟨2, ![1, 128]⟩ b1 hrow1)
        Ws2 Wn2 (shapeCast ⟨2, ![1, 64]⟩ b2 hrow2)
      = net D1 D2 dc hc dr1 hr1 dr2 hr2 d0 h0 (Cert.ReferenceIdeal.Net.agg src dst)
        (broadcastInDim ⟨2, ![100000, 1]⟩ ![0] hBcol (Cert.ReferenceIdeal.Net.degInv dst))
        x Ws0 Wn0 (broadcastInDim ⟨2, ![1, 128]⟩ ![1] hBrow1 b0) Ws1 Wn1 (broadcastInDim ⟨2, ![1, 128]⟩ ![1] hBrow1 b1)
        Ws2 Wn2 (broadcastInDim ⟨2, ![1, 64]⟩ ![1] hBrow2 b2) := by
  rw [col_eq dst hcol hBcol, Cert.LibRows.reshape_row_eq_bcast b0 hrow1 ![1] rfl hBrow1,
    Cert.LibRows.reshape_row_eq_bcast b1 hrow1 ![1] rfl hBrow1, Cert.LibRows.reshape_row_eq_bcast b2 hrow2 ![1] rfl hBrow2,
    agg_eq src dst]

end Cert.Bridge

end
-- ==== Proof.lean ====
/-
  The certificate of a three-layer mean-aggregating graph convolution computed block of rows by block of rows, against the
  same network computed on whole matrices.

  Each layer is  h ↦ h·Ws + (A h ⊙ d)·Wn + b  (followed, in the two hidden layers, by the maximum with zero), where A h are
  the neighbour sums of h along the edge list and d the inverse in-degrees. The kernel's program computes A h and d with
  array operations and then, per layer, a grid of 20 points each taking 5000 rows of h, of A h and of d to the same 5000
  rows of the layer's value; the reference computes the layer on all 100000 rows at once. Row p of a layer's value depends
  only on row p of h, of A h and of d, so the 20 blocks put side by side are the whole value: the two programs compute the
  same finite sums in the same order, and no law of arithmetic on the extended reals is used. That a change of float
  format is the identity, and that a reshape of a vector into a column or a row is the corresponding broadcast, account
  for the remaining differences of spelling. The precondition is never opened.

  The three frames: the two kernel programs' by their generated frame certificates, the reference's by its generated run.
  The idealization rewrote nothing, so it is preserved trivially. The algebraic claim: the kernel's run names its result
  array (KernelRun), which is the network of the arguments (KernelValue, over Region0–2 and KernelStretch0–2); the
  reference's run ends at the network of its arguments (RefValue); the two networks are one (Bridge).
-/
import proofs.«122064_j11244224381113_1_alg».proof.Defs
import proofs.«122064_j11244224381113_1_alg».proof.Proof.Gen.Kernel
import proofs.«122064_j11244224381113_1_alg».proof.Proof.Gen.Kernel.Skeleton
import proofs.«122064_j11244224381113_1_alg».proof.Proof.Gen.Kernel.Launch
import proofs.«122064_j11244224381113_1_alg».proof.Proof.Gen.Kernel.Points
import proofs.«122064_j11244224381113_1_alg».proof.Proof.Gen.Kernel.Frame
import proofs.«122064_j11244224381113_1_alg».proof.Proof.Gen.KernelIdeal
import proofs.«122064_j11244224381113_1_alg».proof.Proof.Gen.KernelIdeal.Skeleton
import proofs.«122064_j11244224381113_1_alg».proof.Proof.Gen.KernelIdeal.Launch
import proofs.«122064_j11244224381113_1_alg».proof.Proof.Gen.KernelIdeal.Points
import proofs.«122064_j11244224381113_1_alg».proof.Proof.Gen.KernelIdeal.Frame
import proofs.«122064_j11244224381113_1_alg».proof.Proof.Gen.ReferenceIdeal
import proofs.«122064_j11244224381113_1_alg».proof.Proof.Gen.ReferenceIdeal.Run
import proofs.«122064_j11244224381113_1_alg».proof.Proof.Gen.Pre_finite_inputs
import proofs.«122064_j11244224381113_1_alg».proof.Proof.KernelRun
import proofs.«122064_j11244224381113_1_alg».proof.Proof.KernelValue
import proofs.«122064_j11244224381113_1_alg».proof.Proof.RefValue
import proofs.«122064_j11244224381113_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.Sage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The common result: the network of the kernel's argument arrays, with the reference's dimension records. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v44) :=
  net Cert.ReferenceIdeal.dot_S100000x128_S128x128_S100000x128_1_0_0_1_n_n Cert.ReferenceIdeal.dot_S100000x128_S128x64_S100000x64_1_0_0_1_n_n
      ![0, 1] Cert.ReferenceIdeal.Facts₀.bcast_S100000x1_S100000x128_0_1 ![0, 1] Cert.ReferenceIdeal.Facts₀.bcast_S1x128_S100000x128_0_1 ![0, 1] Cert.ReferenceIdeal.Facts₀.bcast_S1x64_S100000x64_0_1
      ![] Cert.ReferenceIdeal.Facts₀.bcast_S_S100000x128
      (Cert.KernelIdeal.Net.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.KernelIdeal.Net.col m c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (shapeCast Cert.KernelIdeal.S1x128 (m ((c.tc : Thread Cert.KernelIdeal.nD Cert.KernelIdeal.τ).loc Cert.KernelIdeal.main_arg5)) Cert.KernelIdeal.Gen.shapeCasts_S128_S1x128)
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (shapeCast Cert.KernelIdeal.S1x128 (m ((c.tc : Thread Cert.KernelIdeal.nD Cert.KernelIdeal.τ).loc Cert.KernelIdeal.main_arg8)) Cert.KernelIdeal.Gen.shapeCasts_S128_S1x128)
      (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (shapeCast Cert.KernelIdeal.S1x64 (m ((c.tc : Thread Cert.KernelIdeal.nD Cert.KernelIdeal.τ).loc Cert.KernelIdeal.main_arg11)) Cert.KernelIdeal.Gen.shapeCasts_S64_S1x64)

/-- Both idealized programs, from memories agreeing on the arguments, end with the network of the arguments in their
    result arrays. -/
theorem algebraic : Cert.algebraic_KernelIdeal_ReferenceIdeal := by
  intro m ρ m' ρ' _ hagree
  refine ⟨fun c => result m c, ?_, ?_⟩
  · exact (θ_run Cert.KernelIdeal.defs _ _).mono
      (fun r h c => ⟨(h c).1.trans (Cert.KernelIdeal.Net.value m ρ c _ rfl _ rfl ![0, 1] rfl _ ![0, 1] rfl _ ![0, 1] rfl _ ![] _), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Net.result, e0, e1, e2, e3, e4, e5, e6, e7, e8, e9, e10, e11]
    exact (Cert.Bridge.net_eq _ _ _ _ _ _ _ _ _ _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
